-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S64x64 : Shape := ⟨2, ![64, 64]⟩
abbrev S128x128 : Shape := ⟨2, ![128, 128]⟩
abbrev S32x32 : Shape := ⟨2, ![32, 32]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S32x32 : S_.BroadcastsInDim S32x32 (![] : Fin 0 → Fin S32x32.rank)
  reducesTo_S32x32_S_d0_1 : S32x32.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S32x32 .f32) (main_arg5 : FVec F S32x32 .f32) (main_arg6 : FVec F S128x128 .f32) (main_arg7 : FVec F S4096 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S64x64 .f32) (main_arg2 : FVec F S64x64 .f32) (main_arg3 : FVec F S128x128 .f32) (main_arg4 : FVec F S32x32 .f32) (main_arg5 : FVec F S32x32 .f32) (main_arg6 : FVec F S128x128 .f32) (main_arg7 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S4096x4096 : Shape := ⟨2, ![4096, 4096]⟩
abbrev S64x64 : Shape := ⟨2, ![64, 64]⟩
abbrev S128x128 : Shape := ⟨2, ![128, 128]⟩
abbrev S32x32 : Shape := ⟨2, ![32, 32]⟩
abbrev S4096 : Shape := ⟨1, ![4096]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S32x1x32x1 : Shape := ⟨4, ![32, 1, 32, 1]⟩
abbrev S1x128x1x128 : Shape := ⟨4, ![1, 128, 1, 128]⟩
abbrev S32x128x32x128 : Shape := ⟨4, ![32, 128, 32, 128]⟩
abbrev S128x1x128x1 : Shape := ⟨4, ![128, 1, 128, 1]⟩
abbrev S1x32x1x32 : Shape := ⟨4, ![1, 32, 1, 32]⟩
abbrev S128x32x128x32 : Shape := ⟨4, ![128, 32, 128, 32]⟩
abbrev S1x4096 : Shape := ⟨2, ![1, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 38
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S64x64, .f32⟩
  | .hbm, ⟨2, _⟩ => ⟨S64x64, .f32⟩
  | .hbm, ⟨3, _⟩ => ⟨S128x128, .f32⟩
  | .hbm, ⟨4, _⟩ => ⟨S32x32, .f32⟩
  | .hbm, ⟨5, _⟩ => ⟨S32x32, .f32⟩
  | .hbm, ⟨6, _⟩ => ⟨S128x128, .f32⟩
  | .hbm, ⟨7, _⟩ => ⟨S4096, .f32⟩
  | .hbm, ⟨8, _⟩ => ⟨S64x64, .f32⟩
  | .hbm, ⟨9, _⟩ => ⟨S64x64, .f32⟩
  | .hbm, ⟨10, _⟩ => ⟨S64x1x64x1, .f32⟩
  | .hbm, ⟨11, _⟩ => ⟨S1x64x1x64, .f32⟩
  | .hbm, ⟨12, _⟩ => ⟨S64x64x64x64, .f32⟩
  | .hbm, ⟨13, _⟩ => ⟨S64x64x64x64, .f32⟩
  | .hbm, ⟨14, _⟩ => ⟨S64x64x64x64, .f32⟩
  | .hbm, ⟨15, _⟩ => ⟨S4096x4096, .f32⟩
  | .hbm, ⟨16, _⟩ => ⟨S32x32, .f32⟩
  | .hbm, ⟨17, _⟩ => ⟨S128x128, .f32⟩
  | .hbm, ⟨18, _⟩ => ⟨S32x1x32x1, .f32⟩
  | .hbm, ⟨19, _⟩ => ⟨S1x128x1x128, .f32⟩
  | .hbm, ⟨20, _⟩ => ⟨S32x128x32x128, .f32⟩
  | .hbm, ⟨21, _⟩ => ⟨S32x128x32x128, .f32⟩
  | .hbm, ⟨22, _⟩ => ⟨S32x128x32x128, .f32⟩
  | .hbm, ⟨23, _⟩ => ⟨S4096x4096, .f32⟩
  | .hbm, ⟨24, _⟩ => ⟨S4096x4096, .f32⟩
  | .hbm, ⟨25, _⟩ => ⟨S128x128, .f32⟩
  | .hbm, ⟨26, _⟩ => ⟨S32x32, .f32⟩
  | .hbm, ⟨27, _⟩ => ⟨S128x1x128x1, .f32⟩
  | .hbm, ⟨28, _⟩ => ⟨S1x32x1x32, .f32⟩
  | .hbm, ⟨29, _⟩ => ⟨S128x32x128x32, .f32⟩
  | .hbm, ⟨30, _⟩ => ⟨S128x32x128x32, .f32⟩
  | .hbm, ⟨31, _⟩ => ⟨S128x32x128x32, .f32⟩
  | .hbm, ⟨32, _⟩ => ⟨S4096x4096, .f32⟩
  | .hbm, ⟨33, _⟩ => ⟨S4096x4096, .f32⟩
  | .hbm, ⟨34, _⟩ => ⟨S4096x4096, .bf16⟩
  | .hbm, ⟨35, _⟩ => ⟨S4096x4096, .bf16⟩
  | .hbm, ⟨36, _⟩ => ⟨S1x4096, .f32⟩
  | .hbm, ⟨37, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S64x64_S64x64_1_0 : S64x64.Transposes [1, 0] S64x64
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  transposes_S32x32_S32x32_1_0 : S32x32.Transposes [1, 0] S32x32
  transposes_S128x128_S128x128_1_0 : S128x128.Transposes [1, 0] S128x128
  bcast_S32x32_S32x1x32x1_0_2 : S32x32.BroadcastsInDim S32x1x32x1 (![0, 2] : Fin 2 → Fin S32x1x32x1.rank)
  bcast_S128x128_S1x128x1x128_1_3 : S128x128.BroadcastsInDim S1x128x1x128 (![1, 3] : Fin 2 → Fin S1x128x1x128.rank)
  bcast_S32x1x32x1_S32x128x32x128_0_1_2_3 : S32x1x32x1.BroadcastsInDim S32x128x32x128 (![0, 1, 2, 3] : Fin 4 → Fin S32x128x32x128.rank)
  bcast_S1x128x1x128_S32x128x32x128_0_1_2_3 : S1x128x1x128.BroadcastsInDim S32x128x32x128 (![0, 1, 2, 3] : Fin 4 → Fin S32x128x32x128.rank)
  shapeCasts_S32x128x32x128_S4096x4096 : S32x128x32x128.ShapeCasts S4096x4096
  bcast_S128x128_S128x1x128x1_0_2 : S128x128.BroadcastsInDim S128x1x128x1 (![0, 2] : Fin 2 → Fin S128x1x128x1.rank)
  bcast_S32x32_S1x32x1x32_1_3 : S32x32.BroadcastsInDim S1x32x1x32 (![1, 3] : Fin 2 → Fin S1x32x1x32.rank)
  bcast_S128x1x128x1_S128x32x128x32_0_1_2_3 : S128x1x128x1.BroadcastsInDim S128x32x128x32 (![0, 1, 2, 3] : Fin 4 → Fin S128x32x128x32.rank)
  bcast_S1x32x1x32_S128x32x128x32_0_1_2_3 : S1x32x1x32.BroadcastsInDim S128x32x128x32 (![0, 1, 2, 3] : Fin 4 → Fin S128x32x128x32.rank)
  shapeCasts_S128x32x128x32_S4096x4096 : S128x32x128x32.ShapeCasts S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .bf16 = 32 ∨ (Rect.block (s := S4096x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v12) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S64x64 : Shape := ⟨2, ![64, 64]⟩
abbrev S128x128 : Shape := ⟨2, ![128, 128]⟩
abbrev S32x32 : Shape := ⟨2, ![32, 32]⟩
abbrev S4096 : Shape := ⟨1, ![4096]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S32x1x32x1 : Shape := ⟨4, ![32, 1, 32, 1]⟩
abbrev S1x128x1x128 : Shape := ⟨4, ![1, 128, 1, 128]⟩
abbrev S32x128x32x128 : Shape := ⟨4, ![32, 128, 32, 128]⟩
abbrev S128x1x128x1 : Shape := ⟨4, ![128, 1, 128, 1]⟩
abbrev S1x32x1x32 : Shape := ⟨4, ![1, 32, 1, 32]⟩
abbrev S128x32x128x32 : Shape := ⟨4, ![128, 32, 128, 32]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S64x64, .f32⟩
  | .hbm, ⟨2, _⟩ => ⟨S64x64, .f32⟩
  | .hbm, ⟨3, _⟩ => ⟨S128x128, .f32⟩
  | .hbm, ⟨4, _⟩ => ⟨S32x32, .f32⟩
  | .hbm, ⟨5, _⟩ => ⟨S32x32, .f32⟩
  | .hbm, ⟨6, _⟩ => ⟨S128x128, .f32⟩
  | .hbm, ⟨7, _⟩ => ⟨S4096, .f32⟩
  | .hbm, ⟨8, _⟩ => ⟨S64x1x64x1, .f32⟩
  | .hbm, ⟨9, _⟩ => ⟨S1x64x1x64, .f32⟩
  | .hbm, ⟨10, _⟩ => ⟨S64x64x64x64, .f32⟩
  | .hbm, ⟨11, _⟩ => ⟨S64x64x64x64, .f32⟩
  | .hbm, ⟨12, _⟩ => ⟨S64x64x64x64, .f32⟩
  | .hbm, ⟨13, _⟩ => ⟨S4096x4096, .f32⟩
  | .hbm, ⟨14, _⟩ => ⟨S32x1x32x1, .f32⟩
  | .hbm, ⟨15, _⟩ => ⟨S1x128x1x128, .f32⟩
  | .hbm, ⟨16, _⟩ => ⟨S32x128x32x128, .f32⟩
  | .hbm, ⟨17, _⟩ => ⟨S32x128x32x128, .f32⟩
  | .hbm, ⟨18, _⟩ => ⟨S32x128x32x128, .f32⟩
  | .hbm, ⟨19, _⟩ => ⟨S4096x4096, .f32⟩
  | .hbm, ⟨20, _⟩ => ⟨S4096x4096, .f32⟩
  | .hbm, ⟨21, _⟩ => ⟨S128x1x128x1, .f32⟩
  | .hbm, ⟨22, _⟩ => ⟨S1x32x1x32, .f32⟩
  | .hbm, ⟨23, _⟩ => ⟨S128x32x128x32, .f32⟩
  | .hbm, ⟨24, _⟩ => ⟨S128x32x128x32, .f32⟩
  | .hbm, ⟨25, _⟩ => ⟨S128x32x128x32, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S1x4096, .f32⟩
  | .hbm, ⟨31, _⟩ => ⟨S4096x4096, .f32⟩
  | .hbm, ⟨32, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v1 : Ref sig .tc := ⟨.hbm, 19, rfl⟩
abbrev main_v2 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩

abbrev nD : Nat := 1
abbrev τ : Topo := Topo.v7x

variable {F : FTy → Type} [FloatOps F]

class Facts₀ : Prop where
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S32x32_S32x1x32x1_0_2 : S32x32.BroadcastsInDim S32x1x32x1 (![0, 2] : Fin 2 → Fin S32x1x32x1.rank)
  bcast_S128x128_S1x128x1x128_1_3 : S128x128.BroadcastsInDim S1x128x1x128 (![1, 3] : Fin 2 → Fin S1x128x1x128.rank)
  bcast_S32x1x32x1_S32x128x32x128_0_1_2_3 : S32x1x32x1.BroadcastsInDim S32x128x32x128 (![0, 1, 2, 3] : Fin 4 → Fin S32x128x32x128.rank)
  bcast_S1x128x1x128_S32x128x32x128_0_1_2_3 : S1x128x1x128.BroadcastsInDim S32x128x32x128 (![0, 1, 2, 3] : Fin 4 → Fin S32x128x32x128.rank)
  shapeCasts_S32x128x32x128_S4096x4096 : S32x128x32x128.ShapeCasts S4096x4096
  bcast_S128x128_S128x1x128x1_0_2 : S128x128.BroadcastsInDim S128x1x128x1 (![0, 2] : Fin 2 → Fin S128x1x128x1.rank)
  bcast_S32x32_S1x32x1x32_1_3 : S32x32.BroadcastsInDim S1x32x1x32 (![1, 3] : Fin 2 → Fin S1x32x1x32.rank)
  bcast_S128x1x128x1_S128x32x128x32_0_1_2_3 : S128x1x128x1.BroadcastsInDim S128x32x128x32 (![0, 1, 2, 3] : Fin 4 → Fin S128x32x128x32.rank)
  bcast_S1x32x1x32_S128x32x128x32_0_1_2_3 : S1x32x1x32.BroadcastsInDim S128x32x128x32 (![0, 1, 2, 3] : Fin 4 → Fin S128x32x128x32.rank)
  shapeCasts_S128x32x128x32_S4096x4096 : S128x32x128x32.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KernelPieces.lean ====
/-
  What one grid point of the matmul kernel leaves behind, as values.

  The body keeps a running [1024,1024] accumulator in a scratch buffer.  At a point that starts a
  reduction (k = 0) it first stores the zero block, then adds this point's partial product to what
  it reads back; at the other points (k = 1, the last) it adds the partial product to what the point
  before left, and then writes accumulator + bias row into the output block.  Each of these stores
  covers its whole buffer, so what a buffer holds afterwards is the payload of its last store.
-/
import proofs.«105247_j5385888989194_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a later point of a reduction the scratch ends at: what it held, plus this point's partial product. -/
theorem scratch_B (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x2048 .bf16) (x1 : Vec F S2048x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz,
    View.ld_unit_zero (S := S1024x2048) hz, View.ld_unit_zero (S := S2048x1024) hz]

/-- ... and the output block at: that new accumulator, plus the bias row on every row. -/
theorem out_B (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x2048 .bf16) (x1 : Vec F S2048x1024 .bf16) (x2 : Vec F S1x1024 .f32) (xs0 : Vec F S1024x1024 .f32) :
    out0_B_3 c i a3 h3 a4 h4 a5 h5 a6 h6 a7 h7 hc0 hc1 x0 x1 x2 xs0 = k0_pay3 (k0_pay2 xs0 x0 x1) x2 := by
  unfold out0_B_3
  rw [View.read_writes_eq_canon _ _ _ (cover0_B_3 c i a3 h3 a4 h4 a5 h5 a6 h6 a7 h7 hc0 hc1 x0 x1 x2 xs0)]
  unfold kernelRun0_B
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1024x2048) hz, View.ld_unit_zero (S := S2048x1024) hz,
    View.ld_unit_zero (S := S1x1024) hz]

/-- At the first point of a reduction the scratch ends at: the zero block, plus this point's partial product. -/
theorem scratch_A (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x2048 .bf16) (x1 : Vec F S2048x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz,
    View.ld_unit_zero (S := S2048x1024) hz]

end Cert.KernelIdeal.Pieces

end
-- ==== Proof.Payload.lean ====
/-
  The body's three stored values read at one entry, over the extended reals.

  The reset stores zero everywhere.  The accumulation stores, at (p, q), the old accumulator entry
  plus the dot product of row p of the [1024,2048] left block with column q of the [2048,1024]
  right block (the matrix unit's own accumulator is the zero splat, so it contributes nothing).
  The write-out stores the accumulator entry plus entry q of the one bias row.
-/
import proofs.«105247_j5385888989194_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

/-- The reset block is zero at every entry. -/
theorem zero_apply (j : S1024x1024.Idx) : k0_pay1 (F := Ideal) j = 0 := by
  unfold k0_pay1
  rw [shapeCast_self]
  exact Ideal.ofBits_zero_f32

/-- The left operand's index at output (p, q) and contraction position: row p. -/
theorem lhs_row (j : S1024x1024.Idx) (k : dot_S1024x2048_S2048x1024_S1024x1024_1_0_0_1_n_n.contr.Idx) :
    (dot_S1024x2048_S2048x1024_S1024x1024_1_0_0_1_n_n.lhsIdx j k 0).val = (j 0).val := by
  unfold DotDims.lhsIdx
  rw [dif_neg (show ¬(0 : Fin S1024x2048.rank) ∈ dot_S1024x2048_S2048x1024_S1024x1024_1_0_0_1_n_n.lhsBatch by decide),
    dif_pos (show (0 : Fin S1024x2048.rank) ∈ dot_S1024x2048_S2048x1024_S1024x1024_1_0_0_1_n_n.lhsNonContracting by decide)]
  rfl

/-- The right operand's index at output (p, q) and contraction position: column q. -/
theorem rhs_col (j : S1024x1024.Idx) (k : dot_S1024x2048_S2048x1024_S1024x1024_1_0_0_1_n_n.contr.Idx) :
    (dot_S1024x2048_S2048x1024_S1024x1024_1_0_0_1_n_n.rhsIdx j k 1).val = (j 1).val := by
  unfold DotDims.rhsIdx
  rw [dif_neg (show ¬(1 : Fin S2048x1024.rank) ∈ dot_S1024x2048_S2048x1024_S1024x1024_1_0_0_1_n_n.rhsBatch by decide),
    dif_pos (show (1 : Fin S2048x1024.rank) ∈ dot_S1024x2048_S2048x1024_S1024x1024_1_0_0_1_n_n.rhsNonContracting by decide)]
  rfl

/-- The accumulation at (p, q): the old entry plus row p of the left block times column q of the right block. -/
theorem acc_apply (v3 : Vec Ideal S1024x1024 .f32) (v4 : Vec Ideal S1024x2048 .bf16) (v6 : Vec Ideal S2048x1024 .bf16)
    (p q : Fin 1024) :
    k0_pay2 v3 v4 v6 (ix2 p q) = (v3 (ix2 p q) : EReal) + ∑ k : Fin 2048, (v4 (ix2 p k) : EReal) * (v6 (ix2 k q) : EReal) := by
  unfold k0_pay2
  simp only [shapeCast_self]
  show (v3 (ix2 p q) : EReal) + FloatOps.matmul (F := Ideal) dot_S1024x2048_S2048x1024_S1024x1024_1_0_0_1_n_n none v4 v6 (constant (F := Ideal) S1024x1024 .f32 0x00000000#32) (ix2 p q) = _
  refine congrArg ((v3 (ix2 p q) : EReal) + ·) ?_
  rw [Ideal.matmul_constant_zero_apply, ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k := funext fun a => Fin.ext (by
    match a with
    | ⟨0, _⟩ => exact lhs_row _ _
    | ⟨1, _⟩ => exact (dot_S1024x2048_S2048x1024_S1024x1024_1_0_0_1_n_n.lhsIdx_val_of_single rfl _ _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q := funext fun a => Fin.ext (by
    match a with
    | ⟨0, _⟩ => exact (dot_S1024x2048_S2048x1024_S1024x1024_1_0_0_1_n_n.rhsIdx_val_of_single rfl _ _).trans hk
    | ⟨1, _⟩ => exact rhs_col _ _)
  rw [el, er]

/-- The write-out at (p, q): the accumulator entry plus bias entry q. -/
theorem biased_apply (v16 : Vec Ideal S1024x1024 .f32) (v17 : Vec Ideal S1x1024 .f32) (p q : Fin 1024) :
    k0_pay3 v16 v17 (ix2 p q) = (v16 (ix2 p q) : EReal) + (v17 (ix2 (0 : Fin 1) q) : EReal) := by
  unfold k0_pay3
  rw [shapeCast_self]
  show (v16 (ix2 p q) : EReal) + broadcastTo S1024x1024 v17 broadcasts_S1x1024_S1024x1024 (ix2 p q) = _
  rw [broadcastTo_1b_ab_apply]

end Cert.KernelIdeal.Payload

end
-- ==== Proof.HostArrays.lean ====
/-
  What the matmul region finds in its three operand arrays, and the weight array entry by entry.

  Before the region the program builds the [I, O] weight as a sum of three Kronecker products of
  TRANSPOSED factors.  A Kronecker product kron(A, B) has, at row i·r + k and column j·s + l, the
  entry A[i, j] · B[k, l]; so kron(Aᵀ, Bᵀ) at (row, col) is kron(A, B) at (col, row): the same two
  factor entries, in the same order.  Hence the array the region reads as its right operand is,
  entry by entry, the transpose of the sum of the three untransposed Kronecker products.  The left
  operand is the input itself and the bias row is the bias vector laid out as one row (a change of
  float format is the identity on extended reals).
-/
import proofs.«105247_j5385888989194_2_alg».proof.Proof.Gen.KernelIdeal.Frame.Runs
import proofs.«105247_j5385888989194_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.StableHlo
open Idealize.ShloMosaic.ValueIdx

namespace Cert.KronWeight

open Cert.ReferenceIdeal Cert.ReferenceIdeal.Gen Cert.ReferenceIdeal.Read

/-- Row r = a and column c of the [4096,4096] product, as coordinates of its [·,64,64,64] four-axis form. -/
theorem coords64 (a c : ℕ) (ha : a < 4096) (hc : c < 4096) :
    (a * 4096 + c) / 262144 = a / 64 ∧ (a * 4096 + c) / 4096 % 64 = a % 64
      ∧ (a * 4096 + c) / 64 % 64 = c / 64 ∧ (a * 4096 + c) % 64 = c % 64 :=
  ⟨by omega, by omega, by omega, by omega⟩

/-- Row r = a and column c of the [4096,4096] product, as coordinates of its [·,128,32,128] four-axis form. -/
theorem coords128 (a c : ℕ) (ha : a < 4096) (hc : c < 4096) :
    (a * 4096 + c) / 524288 = a / 128 ∧ (a * 4096 + c) / 4096 % 128 = a % 128
      ∧ (a * 4096 + c) / 128 % 32 = c / 128 ∧ (a * 4096 + c) % 128 = c % 128 :=
  ⟨by omega, by omega, by omega, by omega⟩

/-- Row r = a and column c of the [4096,4096] product, as coordinates of its [·,32,128,32] four-axis form. -/
theorem coords32 (a c : ℕ) (ha : a < 4096) (hc : c < 4096) :
    (a * 4096 + c) / 131072 = a / 32 ∧ (a * 4096 + c) / 4096 % 32 = a % 32
      ∧ (a * 4096 + c) / 32 % 128 = c / 32 ∧ (a * 4096 + c) % 32 = c % 32 :=
  ⟨by omega, by omega, by omega, by omega⟩

/-- The Kronecker product of the transposes of a [64,64] and a [64,64] factor, read at (k, o), is the product of
    the factors themselves read at (o, k). -/
theorem kron64_transposed (x1 : (⟨S64x64, .f32⟩ : BufTy).Contents (Elt Ideal)) (x2 : (⟨S64x64, .f32⟩ : BufTy).Contents (Elt Ideal))
    (hA : S64x64.Transposes [1, 0] S64x64) (hB : S64x64.Transposes [1, 0] S64x64) (k o : Fin 4096) :
    val_main_v0 (F := Ideal) (transpose S64x64 [1, 0] x1 hB) (transpose S64x64 [1, 0] x2 hA) (ix2 k o)
      = val_main_v0 (F := Ideal) x1 x2 (ix2 o k) := by
  obtain ⟨p0, p1, p2, p3⟩ := coords64 k.val o.val k.isLt o.isLt
  obtain ⟨q0, q1, q2, q3⟩ := coords64 o.val k.val o.isLt k.isLt
  rw [val_main_v0_apply, val_main_v0_apply, val_main_call0_v4_apply, val_main_call0_v4_apply, val_main_call0_v2_apply, val_main_call0_v2_apply,
    val_main_call0_v3_apply, val_main_call0_v3_apply, val_main_call0_v0_apply, val_main_call0_v0_apply, val_main_call0_v1_apply, val_main_call0_v1_apply]
  refine congrArg₂ FloatOps.mulf ?_ ?_
  · refine transpose_apply [1, 0] x2 hA _ _ fun b => ?_
    match b with
    | ⟨0, _⟩ => show (o.val * 4096 + k.val) / 64 % 64 = (k.val * 4096 + o.val) / 262144; rw [q2, p0]
    | ⟨1, _⟩ => show (o.val * 4096 + k.val) / 262144 = (k.val * 4096 + o.val) / 64 % 64; rw [q0, p2]
  · refine transpose_apply [1, 0] x1 hB _ _ fun b => ?_
    match b with
    | ⟨0, _⟩ => show (o.val * 4096 + k.val) % 64 = (k.val * 4096 + o.val) / 4096 % 64; rw [q3, p1]
    | ⟨1, _⟩ => show (o.val * 4096 + k.val) / 4096 % 64 = (k.val * 4096 + o.val) % 64; rw [q1, p3]

/-- The Kronecker product of the transposes of a [32,32] and a [128,128] factor, read at (k, o), is the product of
    the factors themselves read at (o, k). -/
theorem kron32x128_transposed (x3 : (⟨S128x128, .f32⟩ : BufTy).Contents (Elt Ideal)) (x4 : (⟨S32x32, .f32⟩ : BufTy).Contents (Elt Ideal))
    (hA : S32x32.Transposes [1, 0] S32x32) (hB : S128x128.Transposes [1, 0] S128x128) (k o : Fin 4096) :
    val_main_v1 (F := Ideal) (transpose S128x128 [1, 0] x3 hB) (transpose S32x32 [1, 0] x4 hA) (ix2 k o)
      = val_main_v1 (F := Ideal) x3 x4 (ix2 o k) := by
  obtain ⟨p0, p1, p2, p3⟩ := coords128 k.val o.val k.isLt o.isLt
  obtain ⟨q0, q1, q2, q3⟩ := coords128 o.val k.val o.isLt k.isLt
  rw [val_main_v1_apply, val_main_v1_apply, val_main_call1_v4_apply, val_main_call1_v4_apply, val_main_call1_v2_apply, val_main_call1_v2_apply,
    val_main_call1_v3_apply, val_main_call1_v3_apply, val_main_call1_v0_apply, val_main_call1_v0_apply, val_main_call1_v1_apply, val_main_call1_v1_apply]
  refine congrArg₂ FloatOps.mulf ?_ ?_
  · refine transpose_apply [1, 0] x4 hA _ _ fun b => ?_
    match b with
    | ⟨0, _⟩ => show (o.val * 4096 + k.val) / 128 % 32 = (k.val * 4096 + o.val) / 524288; rw [q2, p0]
    | ⟨1, _⟩ => show (o.val * 4096 + k.val) / 524288 = (k.val * 4096 + o.val) / 128 % 32; rw [q0, p2]
  · refine transpose_apply [1, 0] x3 hB _ _ fun b => ?_
    match b with
    | ⟨0, _⟩ => show (o.val * 4096 + k.val) % 128 = (k.val * 4096 + o.val) / 4096 % 128; rw [q3, p1]
    | ⟨1, _⟩ => show (o.val * 4096 + k.val) / 4096 % 128 = (k.val * 4096 + o.val) % 128; rw [q1, p3]

/-- The Kronecker product of the transposes of a [128,128] and a [32,32] factor, read at (k, o), is the product of
    the factors themselves read at (o, k). -/
theorem kron128x32_transposed (x5 : (⟨S32x32, .f32⟩ : BufTy).Contents (Elt Ideal)) (x6 : (⟨S128x128, .f32⟩ : BufTy).Contents (Elt Ideal))
    (hA : S128x128.Transposes [1, 0] S128x128) (hB : S32x32.Transposes [1, 0] S32x32) (k o : Fin 4096) :
    val_main_v3 (F := Ideal) (transpose S32x32 [1, 0] x5 hB) (transpose S128x128 [1, 0] x6 hA) (ix2 k o)
      = val_main_v3 (F := Ideal) x5 x6 (ix2 o k) := by
  obtain ⟨p0, p1, p2, p3⟩ := coords32 k.val o.val k.isLt o.isLt
  obtain ⟨q0, q1, q2, q3⟩ := coords32 o.val k.val o.isLt k.isLt
  rw [val_main_v3_apply, val_main_v3_apply, val_main_call2_v4_apply, val_main_call2_v4_apply, val_main_call2_v2_apply, val_main_call2_v2_apply,
    val_main_call2_v3_apply, val_main_call2_v3_apply, val_main_call2_v0_apply, val_main_call2_v0_apply, val_main_call2_v1_apply, val_main_call2_v1_apply]
  refine congrArg₂ FloatOps.mulf ?_ ?_
  · refine transpose_apply [1, 0] x6 hA _ _ fun b => ?_
    match b with
    | ⟨0, _⟩ => show (o.val * 4096 + k.val) / 32 % 128 = (k.val * 4096 + o.val) / 131072; rw [q2, p0]
    | ⟨1, _⟩ => show (o.val * 4096 + k.val) / 131072 = (k.val * 4096 + o.val) / 32 % 128; rw [q0, p2]
  · refine transpose_apply [1, 0] x5 hB _ _ fun b => ?_
    match b with
    | ⟨0, _⟩ => show (o.val * 4096 + k.val) % 32 = (k.val * 4096 + o.val) / 4096 % 32; rw [q3, p1]
    | ⟨1, _⟩ => show (o.val * 4096 + k.val) / 4096 % 32 = (k.val * 4096 + o.val) % 32; rw [q1, p3]

end Cert.KronWeight

namespace Cert.KernelIdeal.Staged

open Cert.KernelIdeal Cert.KernelIdeal.Gen

variable (m : (ℓ : Loc nD τ sig) → Buf (Elt Ideal) ℓ)

/-- The region's left operand is the input array, entry by entry. -/
theorem input_apply (c : Dev nD) (i : S4096x4096.Idx) :
    (V m c main_v12 i : EReal) = ((m ((c : Thread nD τ).loc main_arg0)) i : EReal) := by
  have e : V m c main_v12 = truncf (F := Ideal) (s := S4096x4096) (φ := .f32) .bf16 (m ((c : Thread nD τ).loc main_arg0)) bitsLt_bf16_f32 := by
    dsimp only [V]
    simp only [hostOps0, hostOps0_1, hostOps0_2, hostOps0_3, hostOps0_4, hostOps0_5, hostOps0_6, List.flatten_cons, List.flatten_nil, List.append_nil, List.cons_append, List.nil_append]
    after_results
  rw [e]
  rfl

/-- The region's bias operand is the bias vector as one row. -/
theorem bias_apply (c : Dev nD) (u : Fin 1) (o : Fin 4096) :
    (V m c main_v13 (ix2 u o) : EReal) = ((m ((c : Thread nD τ).loc main_arg7)) (ix1 o) : EReal) := by
  have e : V m c main_v13 = shapeCast S1x4096 (m ((c : Thread nD τ).loc main_arg7)) shapeCasts_S4096_S1x4096 := by
    dsimp only [V]
    simp only [hostOps0, hostOps0_1, hostOps0_2, hostOps0_3, hostOps0_4, hostOps0_5, hostOps0_6, List.flatten_cons, List.flatten_nil, List.append_nil, List.cons_append, List.nil_append]
    after_results
    rfl
  rw [e]
  exact shapeCast_a_1a_apply _ _ u o

/-- The region's right operand as the host operations leave it: the sum of the three Kronecker products of the
    transposed factors (in the order the program adds them), its format changed. -/
theorem weight_eq (c : Dev nD) :
    V m c main_v11 = truncf (F := Ideal) (s := S4096x4096) (φ := .f32) .bf16 (addf (addf
        (Cert.ReferenceIdeal.Read.val_main_v0 (F := Ideal) (transpose S64x64 [1, 0] (m ((c : Thread nD τ).loc main_arg1)) transposes_S64x64_S64x64_1_0) (transpose S64x64 [1, 0] (m ((c : Thread nD τ).loc main_arg2)) transposes_S64x64_S64x64_1_0))
        (Cert.ReferenceIdeal.Read.val_main_v1 (F := Ideal) (transpose S128x128 [1, 0] (m ((c : Thread nD τ).loc main_arg3)) transposes_S128x128_S128x128_1_0) (transpose S32x32 [1, 0] (m ((c : Thread nD τ).loc main_arg4)) transposes_S32x32_S32x32_1_0)))
        (Cert.ReferenceIdeal.Read.val_main_v3 (F := Ideal) (transpose S32x32 [1, 0] (m ((c : Thread nD τ).loc main_arg5)) transposes_S32x32_S32x32_1_0) (transpose S128x128 [1, 0] (m ((c : Thread nD τ).loc main_arg6)) transposes_S128x128_S128x128_1_0)))
      bitsLt_bf16_f32 := by
  dsimp only [V]
  simp only [hostOps0, hostOps0_1, hostOps0_2, hostOps0_3, hostOps0_4, hostOps0_5, hostOps0_6, List.flatten_cons, List.flatten_nil, List.append_nil, List.cons_append, List.nil_append]
  after_results_simp
  rfl

/-- The region's right operand, at (k, o), is the transposed sum of the three Kronecker products of the
    untransposed factors: the array the host reference contracts the input with. -/
theorem weight_apply (c : Dev nD) (k o : Fin 4096) :
    (V m c main_v11 (ix2 k o) : EReal)
      = Cert.ReferenceIdeal.Read.val_main_v5 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 k o) := by
  have hswap : Cert.ReferenceIdeal.Read.idx_main_v5 (ix2 k o) = ix2 o k := funext fun a => Fin.ext (by
    match a with
    | ⟨0, _⟩ => rfl
    | ⟨1, _⟩ => rfl)
  rw [weight_eq, Cert.ReferenceIdeal.Read.val_main_v5_apply, hswap, Cert.ReferenceIdeal.Read.val_main_v4_apply, Cert.ReferenceIdeal.Read.val_main_v2_apply,
    ← Cert.KronWeight.kron64_transposed _ _ transposes_S64x64_S64x64_1_0 transposes_S64x64_S64x64_1_0,
    ← Cert.KronWeight.kron32x128_transposed _ _ transposes_S32x32_S32x32_1_0 transposes_S128x128_S128x128_1_0,
    ← Cert.KronWeight.kron128x32_transposed _ _ transposes_S128x128_S128x128_1_0 transposes_S32x32_S32x32_1_0]
  rfl

end Cert.KernelIdeal.Staged

end
-- ==== Proof.Spec.lean ====
/-
  The function both programs compute, and the one law that joins their two arrangements.

  With x the [4096,4096] input, w the [4096,4096] weight laid out [in, out] and b the bias vector, the
  result's entry (r, c) is  ∑ₖ x[r, k] · w[k, c]  +  b[c],  k over all 4096 contraction positions.
  The kernel reaches it in two steps over the contraction axis: it starts an accumulator at zero, adds
  the sum over positions 0 … 2047, then the sum over positions 2048 … 4095.  Addition of extended
  reals is associative and commutative with neutral element zero, so a sum over 4096 = 2048 + 2048
  positions is the sum over the first half plus the sum over the second half; no finiteness is needed.
-/
import Idealize.ShloMosaic.PureOps.Ideal
import Idealize.ShloMosaic.Lib.ValueIdx

noncomputable section

open Idealize.ShloMosaic Idealize.ShloMosaic.ValueIdx

namespace Cert.AffineSpec

/-- Contraction position k of the first half, among all 4096. -/
abbrev lo (k : Fin 2048) : Fin 4096 := Fin.castAdd 2048 k
/-- Contraction position 2048 + k of the second half. -/
abbrev hi (k : Fin 2048) : Fin 4096 := Fin.natAdd 2048 k

theorem lo_val (k : Fin 2048) : (lo k).val = k.val := rfl
theorem hi_val (k : Fin 2048) : (hi k).val = 2048 + k.val := rfl

/-- Entry (r, c) of x · w + b. -/
def entry (x w : (⟨2, ![4096, 4096]⟩ : Shape).Idx → EReal) (b : Fin 4096 → EReal) (r c : Fin 4096) : EReal :=
  (∑ k : Fin 4096, x (ix2 r k) * w (ix2 k c)) + b c

/-- The whole result array: entry (i₀, i₁) at every index i. -/
def table (x w : (⟨2, ![4096, 4096]⟩ : Shape).Idx → EReal) (b : Fin 4096 → EReal) : (⟨2, ![4096, 4096]⟩ : Shape).Idx → EReal :=
  fun i => entry x w b (i 0) (i 1)

theorem table_ix2 (x w : (⟨2, ![4096, 4096]⟩ : Shape).Idx → EReal) (b : Fin 4096 → EReal) (r c : Fin 4096) :
    table x w b (ix2 r c) = entry x w b r c := rfl

/-- Zero, plus the first half's sum, plus the second half's sum, is the whole sum. -/
theorem sum_halves (f : Fin 4096 → EReal) :
    (0 + ∑ k : Fin 2048, f (lo k)) + ∑ k : Fin 2048, f (hi k) = ∑ k : Fin 4096, f k := by
  rw [zero_add]
  exact (Fin.sum_univ_add (a := 2048) (b := 2048) f).symm

/-- The accumulator after both steps, plus the bias entry, is the result's entry. -/
theorem entry_of_halves (x w : (⟨2, ![4096, 4096]⟩ : Shape).Idx → EReal) (b : Fin 4096 → EReal) (r c : Fin 4096) :
    ((0 + ∑ k : Fin 2048, x (ix2 r (lo k)) * w (ix2 (lo k) c)) + ∑ k : Fin 2048, x (ix2 r (hi k)) * w (ix2 (hi k) c)) + b c
      = entry x w b r c :=
  congrArg (· + b c) (sum_halves fun k => x (ix2 r k) * w (ix2 k c))

end Cert.AffineSpec

end
-- ==== Proof.KernelValue.lean ====
/-
  The kernel's result array is the specification's table.

  The grid is 4 × 4 output blocks of [1024,1024], each visited twice in a row (contraction halves
  k = 0 then k = 1); only the second visit writes the block back.  At that visit the block holds, at
  (p, q): zero, plus the dot product of row p of the input's block (i, 0) with column q of the weight's
  block (0, j), plus the same for blocks (i, 1) and (1, j), plus entry q of the bias row's block j.
  An entry of a block is the array's entry at block index × block size + its place in the block, so this
  is  ∑ₖ x[1024 i + p, k] · w[k, 1024 j + q] + b[1024 j + q]  with the sum over all 4096 positions
  split at 2048: the specification's entry at the block's place in the array.  The sixteen written
  blocks tile the [4096,4096] array.
-/
import proofs.«105247_j5385888989194_2_alg».proof.Proof.Gen.KernelIdeal.Value
import proofs.«105247_j5385888989194_2_alg».proof.Proof.KernelPieces
import proofs.«105247_j5385888989194_2_alg».proof.Proof.Payload
import proofs.«105247_j5385888989194_2_alg».proof.Proof.HostArrays
import proofs.«105247_j5385888989194_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.AffineSpec

/-- One output block's entry (p, q) after both contraction halves, from what the four operand blocks and the bias
    block hold there: the specification's entry (r, c), when the blocks' rows, columns and contraction positions
    are the arrays' rows r, columns c and positions of the first (lo) and second (hi) half. -/
theorem block_value (x w : (⟨2, ![4096, 4096]⟩ : Shape).Idx → EReal) (b : Fin 4096 → EReal)
    (A0 A1 : Vec Ideal S1024x2048 .bf16) (B0 B1 : Vec Ideal S2048x1024 .bf16) (bb : Vec Ideal S1x1024 .f32)
    (p q : Fin 1024) (r c : Fin 4096)
    (hA0 : ∀ k : Fin 2048, (A0 (ix2 p k) : EReal) = x (ix2 r (lo k)))
    (hA1 : ∀ k : Fin 2048, (A1 (ix2 p k) : EReal) = x (ix2 r (hi k)))
    (hB0 : ∀ k : Fin 2048, (B0 (ix2 k q) : EReal) = w (ix2 (lo k) c))
    (hB1 : ∀ k : Fin 2048, (B1 (ix2 k q) : EReal) = w (ix2 (hi k) c))
    (hb : (bb (ix2 (0 : Fin 1) q) : EReal) = b c) :
    k0_pay3 (k0_pay2 (k0_pay2 (k0_pay1 (F := Ideal)) A0 B0) A1 B1) bb (ix2 p q) = entry x w b r c := by
  rw [Payload.biased_apply, Payload.acc_apply, Payload.acc_apply, Payload.zero_apply, hb]
  simp only [hA0, hA1, hB0, hB1]
  exact entry_of_halves x w b r c

variable (m : (ℓ : Loc nD τ sig) → Buf (Elt Ideal) ℓ) (ρ : Dev nD → PrngReg)

/-- An entry of window 0's block at a point is the array's entry at block index × block size + the entry's place in the block. -/
theorem blk0_apply (c : Dev nD) (t : Fin cfg0.N) (p : Fin 1024) (k : Fin 2048) (r : Fin 4096) (kk : Fin 4096)
    (hr : r.val = win0_0.index t 0 * 1024 + p.val) (hk : kk.val = win0_0.index t 1 * 2048 + k.val) :
    (iblk m c 0 t (ix2 p k) : EReal) = (V m c main_v12 (ix2 r kk) : EReal) := by
  unfold iblk
  rw [View.read_apply]
  show V m c main_v12 (((cfg0.win 0).blk t).view.emb (ix2 p k)) = V m c main_v12 (ix2 r kk)
  refine congrArg (V m c main_v12) (funext fun a => Fin.ext ?_)
  match a with
  | ⟨0, _⟩ => show win0_0.index t 0 * 1024 + 1 * p.val = r.val; omega
  | ⟨1, _⟩ => show win0_0.index t 1 * 2048 + 1 * k.val = kk.val; omega

/-- An entry of window 1's block at a point is the array's entry at block index × block size + the entry's place in the block. -/
theorem blk1_apply (c : Dev nD) (t : Fin cfg0.N) (p : Fin 2048) (k : Fin 1024) (r : Fin 4096) (kk : Fin 4096)
    (hr : r.val = win0_1.index t 0 * 2048 + p.val) (hk : kk.val = win0_1.index t 1 * 1024 + k.val) :
    (iblk m c 1 t (ix2 p k) : EReal) = (V m c main_v11 (ix2 r kk) : EReal) := by
  unfold iblk
  rw [View.read_apply]
  show V m c main_v11 (((cfg0.win 1).blk t).view.emb (ix2 p k)) = V m c main_v11 (ix2 r kk)
  refine congrArg (V m c main_v11) (funext fun a => Fin.ext ?_)
  match a with
  | ⟨0, _⟩ => show win0_1.index t 0 * 2048 + 1 * p.val = r.val; omega
  | ⟨1, _⟩ => show win0_1.index t 1 * 1024 + 1 * k.val = kk.val; omega

/-- An entry of window 2's block at a point is the array's entry at block index × block size + the entry's place in the block. -/
theorem blk2_apply (c : Dev nD) (t : Fin cfg0.N) (p : Fin 1) (k : Fin 1024) (r : Fin 1) (kk : Fin 4096)
    (hr : r.val = win0_2.index t 0 * 1 + p.val) (hk : kk.val = win0_2.index t 1 * 1024 + k.val) :
    (iblk m c 2 t (ix2 p k) : EReal) = (V m c main_v13 (ix2 r kk) : EReal) := by
  unfold iblk
  rw [View.read_apply]
  show V m c main_v13 (((cfg0.win 2).blk t).view.emb (ix2 p k)) = V m c main_v13 (ix2 r kk)
  refine congrArg (V m c main_v13) (funext fun a => Fin.ext ?_)
  match a with
  | ⟨0, _⟩ => show win0_2.index t 0 * 1 + 1 * p.val = r.val; omega
  | ⟨1, _⟩ => show win0_2.index t 1 * 1024 + 1 * k.val = kk.val; omega

/-- Where the blocks sit, decided over the 32 grid points: at a second visit t (odd) and the first visit t - 1 before it,
    the input's and the weight's blocks share the output block's row and column index and sit at contraction half 0
    then 1; the bias block shares the column index; the output's block indices are at most 3. -/
theorem idx_facts : ∀ t : Fin cfg0.N, t.val % 2 = 1 →
    win0_0.index ⟨t.val - 1, Nat.lt_of_le_of_lt (Nat.sub_le _ _) t.isLt⟩ 0 = win0_3.index t 0 ∧ win0_0.index ⟨t.val - 1, Nat.lt_of_le_of_lt (Nat.sub_le _ _) t.isLt⟩ 1 = 0
    ∧ win0_1.index ⟨t.val - 1, Nat.lt_of_le_of_lt (Nat.sub_le _ _) t.isLt⟩ 0 = 0 ∧ win0_1.index ⟨t.val - 1, Nat.lt_of_le_of_lt (Nat.sub_le _ _) t.isLt⟩ 1 = win0_3.index t 1
    ∧ win0_0.index t 0 = win0_3.index t 0 ∧ win0_0.index t 1 = 1
    ∧ win0_1.index t 0 = 1 ∧ win0_1.index t 1 = win0_3.index t 1
    ∧ win0_2.index t 0 = 0 ∧ win0_2.index t 1 = win0_3.index t 1
    ∧ win0_3.index t 0 ≤ 3 ∧ win0_3.index t 1 ≤ 3 :=
  (by decide +kernel : ∀ t : Fin grid0.N, t.val % 2 = 1 →
    win0_0.index ⟨t.val - 1, Nat.lt_of_le_of_lt (Nat.sub_le _ _) t.isLt⟩ 0 = win0_3.index t 0 ∧ win0_0.index ⟨t.val - 1, Nat.lt_of_le_of_lt (Nat.sub_le _ _) t.isLt⟩ 1 = 0
    ∧ win0_1.index ⟨t.val - 1, Nat.lt_of_le_of_lt (Nat.sub_le _ _) t.isLt⟩ 0 = 0 ∧ win0_1.index ⟨t.val - 1, Nat.lt_of_le_of_lt (Nat.sub_le _ _) t.isLt⟩ 1 = win0_3.index t 1
    ∧ win0_0.index t 0 = win0_3.index t 0 ∧ win0_0.index t 1 = 1
    ∧ win0_1.index t 0 = 1 ∧ win0_1.index t 1 = win0_3.index t 1
    ∧ win0_2.index t 0 = 0 ∧ win0_2.index t 1 = win0_3.index t 1
    ∧ win0_3.index t 0 ≤ 3 ∧ win0_3.index t 1 ≤ 3)

/-- Every one of the 4 × 4 output blocks is some second visit's. -/
theorem idx_onto : ∀ (q0 q1 : Fin 4), ∃ t : Fin cfg0.N, t.val % 2 = 1 ∧ win0_3.index t 0 = q0.val ∧ win0_3.index t 1 = q1.val :=
  (by decide +kernel : ∀ (q0 q1 : Fin 4), ∃ t : Fin grid0.N, t.val % 2 = 1 ∧ win0_3.index t 0 = q0.val ∧ win0_3.index t 1 = q1.val)

/-- The input as extended reals. -/
abbrev xin (c : Dev nD) : (⟨2, ![4096, 4096]⟩ : Shape).Idx → EReal := fun i => (m ((c : Thread nD τ).loc main_arg0) i : EReal)
/-- The [in, out] weight: the transposed sum of the three Kronecker products of the factors. -/
abbrev wgt (c : Dev nD) : (⟨2, ![4096, 4096]⟩ : Shape).Idx → EReal :=
  Cert.ReferenceIdeal.Read.val_main_v5 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- The bias vector. -/
abbrev bias (c : Dev nD) : Fin 4096 → EReal := fun o => (m ((c : Thread nD τ).loc main_arg7) (ix1 o) : EReal)

/-- The result: the specification's table of the argument arrays. -/
def result (c : Dev nD) : Buf (Elt Ideal) ((c : Thread nD τ).loc main_v14) := table (xin m c) (wgt m c) (bias m c)

/-- What a second visit writes back is its block of the table. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have h0 : ¬t.val % 2 = 0 := by omega
  have hp0 : (t.val - 1) % 2 = 0 := by omega
  have hp1 : ¬(t.val - 1) % 2 = 1 := by omega
  obtain ⟨f0, f1, f2, f3, f4, f5, f6, f7, f8, f9, f10, f11⟩ := idx_facts t h1
  rw [Value.flushed3_B m c t h0 h1, Pieces.out_B, outsAt0_A m c ⟨t.val - 1, Nat.lt_of_le_of_lt (Nat.sub_le _ _) t.isLt⟩ hp0 hp1]
  dsimp only
  rw [Pieces.scratch_A]
  funext y
  obtain ⟨p, q, rfl⟩ : ∃ (p q : Fin 1024), y = ix2 p q := ⟨y 0, y 1, eq_ix2 y⟩
  rw [View.read_apply]
  have hp : p.val < 1024 := p.isLt
  have hq : q.val < 1024 := q.isLt
  have er : ((((cfg0.win 3).blk t).view.emb (ix2 p q)) 0).val = win0_3.index t 0 * 1024 + p.val := by
    show win0_3.index t 0 * 1024 + 1 * p.val = _; omega
  have ec : ((((cfg0.win 3).blk t).view.emb (ix2 p q)) 1).val = win0_3.index t 1 * 1024 + q.val := by
    show win0_3.index t 1 * 1024 + 1 * q.val = _; omega
  generalize ((cfg0.win 3).blk t).view.emb (ix2 p q) = e at er ec
  show k0_pay3 (k0_pay2 (k0_pay2 (k0_pay1 (F := Ideal)) (iblk m c 0 ⟨t.val - 1, Nat.lt_of_le_of_lt (Nat.sub_le _ _) t.isLt⟩) (iblk m c 1 ⟨t.val - 1, Nat.lt_of_le_of_lt (Nat.sub_le _ _) t.isLt⟩)) (iblk m c 0 t) (iblk m c 1 t)) (iblk m c 2 t) (ix2 p q)
    = entry (xin m c) (wgt m c) (bias m c) (e 0) (e 1)
  refine block_value (xin m c) (wgt m c) (bias m c) (iblk m c 0 ⟨t.val - 1, Nat.lt_of_le_of_lt (Nat.sub_le _ _) t.isLt⟩) (iblk m c 0 t) (iblk m c 1 ⟨t.val - 1, Nat.lt_of_le_of_lt (Nat.sub_le _ _) t.isLt⟩) (iblk m c 1 t) (iblk m c 2 t)
    p q (e 0) (e 1) (fun k => ?_) (fun k => ?_) (fun k => ?_) (fun k => ?_) ?_
  · exact (blk0_apply m c ⟨t.val - 1, Nat.lt_of_le_of_lt (Nat.sub_le _ _) t.isLt⟩ p k (e 0) (lo k) (by rw [er, f0]) (by have := lo_val k; omega)).trans
      (Cert.KernelIdeal.Staged.input_apply m c _)
  · exact (blk0_apply m c t p k (e 0) (hi k) (by rw [er, f4]) (by have := hi_val k; omega)).trans
      (Cert.KernelIdeal.Staged.input_apply m c _)
  · exact (blk1_apply m c ⟨t.val - 1, Nat.lt_of_le_of_lt (Nat.sub_le _ _) t.isLt⟩ k q (lo k) (e 1) (by have := lo_val k; omega) (by rw [ec, f3])).trans
      (Cert.KernelIdeal.Staged.weight_apply m c _ _)
  · exact (blk1_apply m c t k q (hi k) (e 1) (by have := hi_val k; omega) (by rw [ec, f7])).trans
      (Cert.KernelIdeal.Staged.weight_apply m c _ _)
  · exact (blk2_apply m c t (0 : Fin 1) q (0 : Fin 1) (e 1) (by rw [f8]; rfl) (by rw [ec, f9])).trans
      (Cert.KernelIdeal.Staged.bias_apply m c _ _)

/-- An index of the array is in a point's output block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v14).slice (win0_3.rect t)).set ↔ _
  rw [View.set_slice_whole, Rect.mem_set_unit]
  exact Iff.rfl

/-- The written blocks tile the array: row i₀ and column i₁ lie in block (i₀ / 1024, i₁ / 1024). -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht, e0, e1⟩ := idx_onto ⟨(i 0).val / 1024, by omega⟩ ⟨(i 1).val / 1024, by omega⟩
  refine ⟨t, (flush0_3 t).mpr ht, ?_⟩
  rw [mem_blk]
  intro a
  match a with
  | ⟨0, _⟩ =>
    show win0_3.index t 0 * 1024 ≤ (i 0).val ∧ (i 0).val < win0_3.index t 0 * 1024 + 1024
    rw [e0]; dsimp only; omega
  | ⟨1, _⟩ =>
    show win0_3.index t 1 * 1024 ≤ (i 1).val ∧ (i 1).val < win0_3.index t 1 * 1024 + 1024
    rw [e1]; dsimp only; omega

/-- So the result array ends holding the table. -/
theorem final (c : Dev nD) : (dats m 0 c).arrAt 3 cfg0.N = result m c :=
  (dats m 0 c).arrAt_eq_of_cover 3 (result m c) (flushed_eq m c) cover

/-- The kernel's run, read: the result array at the table of the arguments, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Result

end
-- ==== Proof.RefValue.lean ====
/-
  The host reference computes the specification's table.

  Its last three operations are a contraction of the input's columns with the rows of the transposed
  weight sum, the bias vector laid out as a row and repeated on every row, and their sum; read at
  (r, c) that is  ∑ₖ x[r, k] · w[k, c] + b[c]  with w the transposed sum of the Kronecker products.
-/
import proofs.«105247_j5385888989194_2_alg».proof.Proof.Gen.ReferenceIdeal.Read
import proofs.«105247_j5385888989194_2_alg».proof.Proof.Spec

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read Cert.AffineSpec

/-- The reference's result, entry by entry. -/
theorem result_apply (x0 : (⟨S4096x4096, .f32⟩ : BufTy).Contents (Elt Ideal)) (x1 : (⟨S64x64, .f32⟩ : BufTy).Contents (Elt Ideal)) (x2 : (⟨S64x64, .f32⟩ : BufTy).Contents (Elt Ideal)) (x3 : (⟨S128x128, .f32⟩ : BufTy).Contents (Elt Ideal)) (x4 : (⟨S32x32, .f32⟩ : BufTy).Contents (Elt Ideal)) (x5 : (⟨S32x32, .f32⟩ : BufTy).Contents (Elt Ideal)) (x6 : (⟨S128x128, .f32⟩ : BufTy).Contents (Elt Ideal)) (x7 : (⟨S4096, .f32⟩ : BufTy).Contents (Elt Ideal)) (r c : Fin 4096) :
    val_main_v9 (F := Ideal) x0 x1 x2 x3 x4 x5 x6 x7 (ix2 r c)
      = entry x0 (val_main_v5 (F := Ideal) x1 x2 x3 x4 x5 x6) (fun o => x7 (ix1 o)) r c := by
  have el : ∀ k : Fin 4096, lidx_main_v6 (ix2 r c) k = ix2 r k := fun k => funext fun a => Fin.ext (by
    match a with
    | ⟨0, _⟩ => rfl
    | ⟨1, _⟩ => rfl)
  have er : ∀ k : Fin 4096, ridx_main_v6 (ix2 r c) k = ix2 k c := fun k => funext fun a => Fin.ext (by
    match a with
    | ⟨0, _⟩ => rfl
    | ⟨1, _⟩ => rfl)
  have eb : idx_main_v7 (idx_main_v8 (ix2 r c)) = ix1 c := funext fun a => Fin.ext (by
    match a with
    | ⟨0, _⟩ => rfl)
  rw [val_main_v9_apply, val_main_v6_apply, val_main_v8_apply, val_main_v7_apply, eb]
  simp only [el, er]
  rfl

/-- The reference's result array is the specification's table of the arguments. -/
theorem result_eq (x0 : (⟨S4096x4096, .f32⟩ : BufTy).Contents (Elt Ideal)) (x1 : (⟨S64x64, .f32⟩ : BufTy).Contents (Elt Ideal)) (x2 : (⟨S64x64, .f32⟩ : BufTy).Contents (Elt Ideal)) (x3 : (⟨S128x128, .f32⟩ : BufTy).Contents (Elt Ideal)) (x4 : (⟨S32x32, .f32⟩ : BufTy).Contents (Elt Ideal)) (x5 : (⟨S32x32, .f32⟩ : BufTy).Contents (Elt Ideal)) (x6 : (⟨S128x128, .f32⟩ : BufTy).Contents (Elt Ideal)) (x7 : (⟨S4096, .f32⟩ : BufTy).Contents (Elt Ideal)) :
    val_main_v9 (F := Ideal) x0 x1 x2 x3 x4 x5 x6 x7
      = table x0 (val_main_v5 (F := Ideal) x1 x2 x3 x4 x5 x6) (fun o => x7 (ix1 o)) := by
  funext i
  obtain ⟨r, c, rfl⟩ : ∃ (r c : Fin 4096), i = ix2 r c := ⟨i 0, i 1, eq_ix2 i⟩
  rw [result_apply, table_ix2]

end Cert.ReferenceIdeal.RefValue

end
-- ==== Proof.lean ====
/-
  A linear layer whose weight is a sum of three Kronecker products:  out = x · Wᵀ + b  with
  W = kron(w0b, w0a) + kron(w1b, w1a) + kron(w2b, w2a),  all of size 4096.

  The reference forms W, transposes it, contracts x with it and adds the bias.  The kernel's program
  forms Wᵀ directly as kron(w0bᵀ, w0aᵀ) + kron(w1bᵀ, w1aᵀ) + kron(w2bᵀ, w2aᵀ) — entry by entry the
  same products of the same two factor entries (Proof/HostArrays.lean) — and multiplies in a 4 × 4 × 2
  grid of blocks, accumulating each output block over the two halves of the contraction axis from a
  zero start and adding the bias on the last half (Proof/KernelValue.lean).  Over the extended reals
  the two halves' sums add up to the whole sum (Proof/Spec.lean), so both programs end with
  ∑ₖ x[r, k] · Wᵀ[k, c] + b[c]  at every (r, c); the kernel's idealization rewrote nothing.
-/
import proofs.«105247_j5385888989194_2_alg».proof.Defs
import proofs.«105247_j5385888989194_2_alg».proof.Proof.Gen.Kernel
import proofs.«105247_j5385888989194_2_alg».proof.Proof.Gen.Kernel.Frame
import proofs.«105247_j5385888989194_2_alg».proof.Proof.Gen.KernelIdeal
import proofs.«105247_j5385888989194_2_alg».proof.Proof.Gen.KernelIdeal.Frame
import proofs.«105247_j5385888989194_2_alg».proof.Proof.Gen.KernelIdeal.Value
import proofs.«105247_j5385888989194_2_alg».proof.Proof.Gen.ReferenceIdeal
import proofs.«105247_j5385888989194_2_alg».proof.Proof.Gen.ReferenceIdeal.Run
import proofs.«105247_j5385888989194_2_alg».proof.Proof.Gen.ReferenceIdeal.Read
import proofs.«105247_j5385888989194_2_alg».proof.Proof.Gen.Pre_finite_inputs
import proofs.«105247_j5385888989194_2_alg».proof.Proof.KernelValue
import proofs.«105247_j5385888989194_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's table of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v9_eq, Cert.ReferenceIdeal.RefValue.result_eq, a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
